-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S32x2048x64.size a
  hwx0_3 : ∀ i : grid0.Coords, EltTy.bits .f32 = 32 ∨ (Rect.block (s := S32x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048x1, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S32x2048x2048, .f32⟩
  | .hbm, ⟨21, _⟩ => ⟨S32x2048x2048, .f32⟩
  | .hbm, ⟨22, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«154253_j90735479095756_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibRowSoftmax.lean ====
/-
  The log-softmax of a row, and the two ways the programs spell it on a matrix.

  For a row z of extended reals and a starting value b for the maximum, the log-softmax at position j is
  (z j − M) − log Σ_k exp (z k − M) with M the maximum of b and the row's entries.  A kernel computes it on an [a, b]
  block with lane reductions kept as columns and broadcast back across the lanes; a host program computes it with
  reductions from an initial value, takes the maximum of the row maximum with the initial value once more, and lays the
  columns out by broadcasts.  Read at entry (r, j), both are the row function at row r: the second maximum changes
  nothing because the fold already starts from b, and the host's sum starts from zero.
-/
import Idealize.ShloMosaic.PureOps.Ideal.Laws
import Idealize.ShloMosaic.Lib.IdealHost
import Idealize.ShloMosaic.Lib.ValueLayout
import proofs.«154253_j90735479095756_2_alg».proof.Proof.LibColumns
import proofs.«154253_j90735479095756_2_alg».proof.Proof.LibRowSums

open scoped BigOperators

noncomputable section

namespace Cert.LibRowSoftmax

open Idealize.ShloMosaic Idealize.ShloMosaic.ValueIdx

/-- The maximum of a starting value and the entries of a row. -/
def rowMax {n : ℕ} (b : EReal) (z : Fin n → EReal) : EReal := (Finset.univ : Finset (Fin n)).fold max b z

/-- The log-softmax of a row at position `j`, the maximum taken from the starting value `b`. -/
def lsm {n : ℕ} (b : EReal) (z : Fin n → EReal) (j : Fin n) : EReal :=
  (z j - rowMax b z) - Ideal.log (∑ k : Fin n, Ideal.exp (z k - rowMax b z))

/-- The fold of a maximum from `b` is at least `b`, so taking the maximum with `b` once more changes nothing. -/
theorem max_rowMax {n : ℕ} (b : EReal) (z : Fin n → EReal) : max b (rowMax b z) = rowMax b z :=
  max_eq_right ((Finset.le_fold_max b).mpr (Or.inl le_rfl))

/-- A KERNEL's row maximum kept as a column and broadcast back: at `(r, j)` it is the row's maximum from the
    accumulator's value. -/
theorem laneMax_apply {a b : ℕ} (z : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    broadcastTo ⟨2, ![a, b]⟩ (shapeCast ⟨2, ![a, 1]⟩ (multiReduction .maximumf [1] ⟨1, ![a]⟩ z acc h hφ hacc) hc) hb (ix2 r j)
      = rowMax (Ideal.ofBits .f32 acc) (fun k => z (ix2 r k)) := by
  rw [Cert.LibColumns.broadcastTo_a1_ab_apply, Cert.LibColumns.shapeCast_a_a1_apply]
  refine (Ideal.multiReduction_maximumf_single z acc h hφ hacc (ix1 r)).trans ?_
  show (Finset.univ : Finset (Fin b)).fold max (Ideal.ofBits .f32 acc) (fun k => z (h.lift (ix1 r) k)) = _
  unfold rowMax
  exact congrArg (fun f : Fin b → EReal => Finset.fold max (Ideal.ofBits .f32 acc) f Finset.univ)
    (funext fun k => congrArg z (Cert.LibRowSums.lift_row h r k))

/-- A KERNEL's log-softmax of an [a, b] block, read at `(r, j)`: the row function at row `r`. -/
theorem kernel_apply {a b : ℕ} (z : FVec Ideal ⟨2, ![a, b]⟩ .f32) (accM accS : BitVec 32)
    (h : (⟨2, ![a, b]⟩ : Shape).Reduces [1] ⟨1, ![a]⟩) (hφ : FKind.Formats .f32)
    (haccM : accM = FKind.maximumf.neutral .f32 hφ) (haccS : accS = FKind.add.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    subf (subf z (broadcastTo ⟨2, ![a, b]⟩ (shapeCast ⟨2, ![a, 1]⟩ (multiReduction .maximumf [1] ⟨1, ![a]⟩ z accM h hφ haccM) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z accM h hφ haccM) hc) hb)))
          accS h hφ haccS) hc)) hb) (ix2 r j)
      = lsm (Ideal.ofBits .f32 accM) (fun k => z (ix2 r k)) j := by
  have hM : ∀ k : Fin b, subf z (broadcastTo ⟨2, ![a, b]⟩ (shapeCast ⟨2, ![a, 1]⟩ (multiReduction .maximumf [1] ⟨1, ![a]⟩ z accM h hφ haccM) hc) hb) (ix2 r k)
      = z (ix2 r k) - rowMax (Ideal.ofBits .f32 accM) (fun k => z (ix2 r k)) := fun k => by
    rw [subf_apply, laneMax_apply]
  rw [subf_apply, hM j, Cert.LibColumns.broadcastTo_a1_ab_apply]
  show _ - Ideal.log (shapeCast ⟨2, ![a, 1]⟩ (multiReduction (F := Ideal) .add [1] ⟨1, ![a]⟩ _ accS h hφ haccS) hc (ix2 r (0 : Fin 1))) = _
  rw [Cert.LibRowSums.laneSum_apply]
  unfold lsm
  refine congrArg (fun s => _ - Ideal.log s) (Finset.sum_congr rfl fun k _ => ?_)
  show Ideal.exp (subf z _ (ix2 r k)) = _
  rw [hM k]

/-- A HOST program's row maximum, taken once more with the initial value, laid out as a column and broadcast across:
    at `(r, j)` it is the row's maximum from the initial value. -/
theorem hostMax_apply {a b : ℕ} {u : Shape} (z : FVec Ideal ⟨2, ![a, b]⟩ .f32) (init : u.Idx → Ideal .f32) (v : EReal)
    (h' : (⟨2, ![a, b]⟩ : Shape).ReducesTo [1] ⟨1, ![a]⟩) (hu : 0 < u.numel) (hv : init (Shape.Idx.first hu) = v)
    (h : (⟨2, ![a, b]⟩ : Shape).Reduces [1] ⟨1, ![a]⟩)
    (hb1 : (⟨1, ![a]⟩ : Shape).BroadcastsInDim ⟨2, ![a, 1]⟩ ![0]) (hb2 : (⟨2, ![a, 1]⟩ : Shape).BroadcastsInDim ⟨2, ![a, b]⟩ ![0, 1])
    (w : FVec Ideal ⟨1, ![a]⟩ .f32) (hw : ∀ i, w i = v) (r : Fin a) (j : Fin b) :
    broadcastInDim ⟨2, ![a, b]⟩ ![0, 1] hb2 (broadcastInDim ⟨2, ![a, 1]⟩ ![0] hb1
        (maximumf w (Host.reduce FloatOps.maximumf z init h' hu))) (ix2 r j)
      = rowMax v (fun k => z (ix2 r k)) := by
  rw [Cert.LibRowSums.broadcastInDim_a1_ab_apply, Cert.LibRowSums.broadcastInDim_a_a1_apply, maximumf_apply, hw,
    Host.reduce_eq_fold_single FloatOps.maximumf z init h' h hu, hv]
  refine Eq.trans ?_ (max_rowMax v _)
  unfold rowMax
  show max v (Finset.fold max v (fun k => z (h.lift (ix1 r) k)) Finset.univ) = _
  exact congrArg (fun f : Fin b → EReal => max v (Finset.fold max v f Finset.univ))
    (funext fun k => congrArg z (Cert.LibRowSums.lift_row h r k))

end Cert.LibRowSoftmax

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibMatmulNT.lean ====
/-
  A matrix product against a transposed right operand, read at one entry, over the extended reals.

  A product of an [A, K] matrix by a [B, K] matrix whose dimension numbers contract the second axis of both operands,
  accumulated into the zero matrix, has at entry (r, j) the value Σ_k lhs[r, k] · rhs[j, k]: row r of the left operand
  against row j of the right one.  Exact arithmetic leaves neither rounding nor a chunk order in it.  The plain product
  (the right operand contracted on its first axis) is `Cert.LibMatmul.plain_matmul_zero_apply`.
-/
import Idealize.ShloMosaic.PureOps.Ideal.Laws
import Idealize.ShloMosaic.Lib.ValueIdx

noncomputable section

namespace Cert.LibMatmulNT

open Idealize.ShloMosaic Idealize.ShloMosaic.ValueIdx

/-- Entry (r, j) of a product into a zero accumulator that contracts both operands' second axes is the sum over that
    axis of the left operand's row r against the right operand's row j. -/
theorem transposedRhs_matmul_zero_apply {A K B : Nat} {φ₁ φ₂ : FTy} (prec : Option ContractPrecision)
    (lhs : FVec Ideal ⟨2, ![A, K]⟩ φ₁) (rhs : FVec Ideal ⟨2, ![B, K]⟩ φ₂) (r : Fin A) (j : Fin B) :
    FloatOps.matmul (DotDims.transposedRhs A K B) prec lhs rhs (constant (F := Ideal) ⟨2, ![A, B]⟩ .f32 0x00000000#32) (ix2 r j)
      = ∑ k : Fin K, lhs (ix2 r k) * rhs (ix2 j k) := by
  rw [Ideal.matmul_constant_zero_apply, ← Equiv.sum_comp (contrEquiv1 (DotDims.transposedRhs A K B) K rfl rfl).symm]
  refine Finset.sum_congr rfl fun k _ => ?_
  have hk := contrEquiv1_symm_val (DotDims.transposedRhs A K B) K rfl rfl k
  have el : (DotDims.transposedRhs A K B).lhsIdx (ix2 r j) ((contrEquiv1 (DotDims.transposedRhs A K B) K rfl rfl).symm k) = ix2 r k :=
    funext fun a => Fin.ext (by
      match a with
      | ⟨0, _⟩ => rfl
      | ⟨1, _⟩ => exact ((DotDims.transposedRhs A K B).lhsIdx_val_of_single rfl (ix2 r j) _).trans hk)
  have er : (DotDims.transposedRhs A K B).rhsIdx (ix2 r j) ((contrEquiv1 (DotDims.transposedRhs A K B) K rfl rfl).symm k) = ix2 j k :=
    funext fun a => Fin.ext (by
      match a with
      | ⟨0, _⟩ => rfl
      | ⟨1, _⟩ => exact ((DotDims.transposedRhs A K B).rhsIdx_val_of_single rfl (ix2 r j) _).trans hk)
  rw [el, er]

end Cert.LibMatmulNT

end
-- ==== Proof.LibSoftmaxMean.lean ====
/-
  Extended-real algebra used to compare a softmax-weighted mean with a plain weighted mean.

  The extended reals contain the real numbers; sums, products, differences, quotients by a
  nonzero real, the exponential, the logarithm of a positive real, and the maximum of two reals
  all stay inside the reals. On reals the following identity holds: for weights a_s > 0, scores
  c_s, values h_s and any real M,

      sum_s [ exp (c_s / 1 + log a_s - M) / (0 + sum_t exp (c_t / 1 + log a_t - M)) ] h_s
        = (sum_s a_s exp (c_s) h_s) / (sum_s a_s exp (c_s)),

  because exp (c + log a - M) = a exp (c) exp (-M) and the factor exp (-M) > 0 is common to the
  numerator and the denominator.
-/
import Idealize.ShloMosaic.PureOps.Ideal
import Mathlib.Data.Finset.Fold

noncomputable section

namespace Cert.LibSoftmaxMean

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.of_ne {x : EReal} (ht : x ≠ ⊤) (hb : x ≠ ⊥) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i, IsReal (f i)) :
    IsReal (∑ i ∈ s, f i) := by
  classical
  induction s using Finset.induction_on with
  | empty => rw [Finset.sum_empty]; exact IsReal.zero
  | insert a s ha ih => rw [Finset.sum_insert ha]; exact (hf a).add ih

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (IsReal.coe a).mul (IsReal.coe _)

/-- The clamp max (sqrt x) e of a real x by a real e is a real, whatever the sign of x: the square
    root of a negative real is the bottom element, which the maximum discards. -/
theorem IsReal.max_sqrt {x e : EReal} (hx : IsReal x) (he : IsReal e) : IsReal (max (Ideal.sqrt x) e) := by
  obtain ⟨a, rfl⟩ := hx; obtain ⟨b, rfl⟩ := he
  rw [Ideal.sqrt_coe]
  split_ifs
  · rw [max_eq_right bot_le]; exact ⟨b, rfl⟩
  · exact ⟨max (Real.sqrt a) b, EReal.coe_strictMono.monotone.map_max⟩

theorem IsReal.exp {x : EReal} (hx : IsReal x) : IsReal (Ideal.exp x) := by
  obtain ⟨a, rfl⟩ := hx; exact ⟨Real.exp a, rfl⟩

theorem IsReal.log {x : EReal} (hx : IsReal x) (hpos : 0 < x) : IsReal (Ideal.log x) := by
  obtain ⟨a, rfl⟩ := hx
  have ha : 0 < a := EReal.coe_pos.mp hpos
  rw [Ideal.log_coe, if_neg (not_le.mpr ha)]; exact ⟨Real.log a, rfl⟩

/-- The maximum over a nonempty finite family of reals, started from any value other than the top
    element, is a real: it is below the top because every entry and the start are, and it is above
    the bottom because it is at least one of the entries. -/
theorem IsReal.fold_max {ι : Type*} (s : Finset ι) (hs : s.Nonempty) (b : EReal) (hb : b ≠ ⊤)
    (f : ι → EReal) (hf : ∀ i, IsReal (f i)) : IsReal (s.fold max b f) := by
  refine IsReal.of_ne (ne_of_lt ?_) (ne_of_gt ?_)
  · exact (Finset.fold_max_lt _).mpr ⟨lt_top_iff_ne_top.mpr hb, fun i _ => lt_top_iff_ne_top.mpr (hf i).ne_top⟩
  · obtain ⟨i, hi⟩ := hs
    exact (Finset.lt_fold_max _).mpr (Or.inr ⟨i, hi, bot_lt_iff_ne_bot.mpr (hf i).ne_bot⟩)

/-- The single-precision patterns of 1, of -inf and of the small constant, read exactly. -/
theorem ofBits_one : Ideal.ofBits .f32 0x3F800000#32 = 1 := by
  simp [Ideal.ofBits, Ideal.ieee, -EReal.coe_mul]
  norm_num

theorem ofBits_neg_inf : Ideal.ofBits .f32 0xFF800000#32 = ⊥ := by simp [Ideal.ofBits, Ideal.ieee]

theorem ofBits_zero : Ideal.ofBits .f32 0x00000000#32 = 0 := by simp [Ideal.ofBits, Ideal.ieee]

theorem ofBits_eps : ∃ e : ℝ, 0 < e ∧ Ideal.ofBits .f32 0x322BCC77#32 = (e : EReal) := by
  refine ⟨_, ?_, by simp [Ideal.ofBits, Ideal.ieee]; rfl⟩
  positivity

/-- Division by one is the identity. -/
theorem div_one (x : EReal) : Ideal.div x 1 = x := by
  have h := Ideal.div_coe (y := 1) one_ne_zero x
  rw [EReal.coe_one] at h
  rw [h]; simp

/-- The softmax-weighted mean is the plain weighted mean: for real scores C, real values H, positive
    real weights A and a real shift M, the common factor exp (-M) cancels between the numerator and
    the denominator, and exp (log a) = a turns each exponential into the weight a exp (c). -/
theorem softmax_mean {ι : Type*} [Fintype ι] [Nonempty ι] (C H A : ι → EReal) (M : EReal)
    (hC : ∀ s, IsReal (C s)) (hH : ∀ s, IsReal (H s)) (hA : ∀ s, IsReal (A s)) (hpos : ∀ s, 0 < A s)
    (hM : IsReal M) :
    ∑ s, Ideal.div (Ideal.exp (Ideal.div (C s) 1 + Ideal.log (A s) - M))
          (0 + ∑ t, Ideal.exp (Ideal.div (C t) 1 + Ideal.log (A t) - M)) * H s
      = Ideal.div (∑ s, A s * Ideal.exp (C s) * H s) (∑ s, A s * Ideal.exp (C s)) := by
  choose c hc using hC
  choose h hh using hH
  choose a ha using hA
  obtain ⟨m, rfl⟩ := hM
  have hapos : ∀ s, 0 < a s := fun s => EReal.coe_pos.mp (by rw [← ha s]; exact hpos s)
  have hexp : ∀ s, Ideal.exp (Ideal.div (C s) 1 + Ideal.log (A s) - (m : EReal))
      = ((a s * Real.exp (c s) * Real.exp (-m) : ℝ) : EReal) := by
    intro s
    rw [div_one, hc s, ha s, Ideal.log_coe, if_neg (not_le.mpr (hapos s)), ← EReal.coe_add, ← EReal.coe_sub,
      Ideal.exp_coe, sub_eq_add_neg, Real.exp_add, Real.exp_add, Real.exp_log (hapos s), mul_comm (Real.exp (c s))]
  have hZ : 0 < ∑ s, a s * Real.exp (c s) :=
    Finset.sum_pos (fun s _ => mul_pos (hapos s) (Real.exp_pos _)) Finset.univ_nonempty
  have hE : 0 < Real.exp (-m) := Real.exp_pos _
  have hden : (0 : EReal) + ∑ t, Ideal.exp (Ideal.div (C t) 1 + Ideal.log (A t) - (m : EReal))
      = (((∑ s, a s * Real.exp (c s)) * Real.exp (-m) : ℝ) : EReal) := by
    rw [zero_add, Finset.sum_mul, coe_sum]
    exact Finset.sum_congr rfl fun t _ => hexp t
  have hw : ∀ s, A s * Ideal.exp (C s) = ((a s * Real.exp (c s) : ℝ) : EReal) := by
    intro s; rw [hc s, ha s, Ideal.exp_coe, ← EReal.coe_mul]
  have hnum : ∑ s, A s * Ideal.exp (C s) * H s = ((∑ s, a s * Real.exp (c s) * h s : ℝ) : EReal) := by
    rw [coe_sum]
    exact Finset.sum_congr rfl fun s _ => by rw [hw s, hh s, ← EReal.coe_mul]
  have hsum : ∑ s, A s * Ideal.exp (C s) = ((∑ s, a s * Real.exp (c s) : ℝ) : EReal) := by
    rw [coe_sum]
    exact Finset.sum_congr rfl fun s _ => hw s
  have hterm : ∀ s, Ideal.div (Ideal.exp (Ideal.div (C s) 1 + Ideal.log (A s) - (m : EReal)))
        (((∑ s, a s * Real.exp (c s)) * Real.exp (-m) : ℝ) : EReal) * H s
      = ((a s * Real.exp (c s) * h s * (1 / ∑ s, a s * Real.exp (c s)) : ℝ) : EReal) := by
    intro s
    rw [hexp s, Ideal.div_coe (ne_of_gt (mul_pos hZ hE)), hh s, ← EReal.coe_mul, ← EReal.coe_mul]
    congr 1
    field_simp
  rw [hden]
  refine (Finset.sum_congr rfl fun s _ => hterm s).trans ?_
  rw [hnum, hsum, Ideal.div_coe (ne_of_gt hZ), ← EReal.coe_mul, ← coe_sum, ← Finset.sum_mul]

end Cert.LibSoftmaxMean

end
-- ==== Proof.AttentionLaw.lean ====
/-
  One query row of scaled dot-product attention over the extended reals.

  For scores s_k and values v_k (k < n) let M be the maximum of the scores, taken from a starting value b, and
  w_k = exp (s_k - M) the unnormalised weights.  One program forms the weighted sum first and divides once,
  (sum_k w_k v_k) / (sum_k w_k); the other divides every weight by 0 + sum_t w_t and then sums, sum_k (w_k / Z) v_k.
  When the scores and the values are real numbers and n > 0, M is real, every weight is a positive real, the
  normaliser Z is a positive real, and the two are equal because a real factor 1 / Z distributes over a finite sum of
  reals.  (With an infinite entry the distributive step can fail, so the reals are needed.)

  The scores themselves are a row of products scaled by one eighth; the other program divides by the square root of
  sixty-four, which is eight, and dividing an extended real by eight is multiplying it by one eighth.
-/
import Idealize.ShloMosaic.PureOps.Ideal
import Mathlib.Data.Finset.Fold
import proofs.«154253_j90735479095756_2_alg».proof.Proof.LibSoftmaxMean
import proofs.«154253_j90735479095756_2_alg».proof.Proof.LibRowSoftmax

open scoped BigOperators

noncomputable section

namespace Cert.AttentionLaw

open Idealize.ShloMosaic Cert.LibSoftmaxMean Cert.LibRowSoftmax

/-- The unnormalised weight of key `k`: exp (s k - max s), the maximum taken from `b`. -/
def weight {n : ℕ} (b : EReal) (s : Fin n → EReal) (k : Fin n) : EReal := Ideal.exp (s k - rowMax b s)

/-- Normalise after the weighted sum: (sum_k w_k v_k) / (sum_k w_k). -/
def normAfter {n : ℕ} (b : EReal) (s v : Fin n → EReal) : EReal :=
  Ideal.div (∑ k, weight b s k * v k) (∑ k, weight b s k)

/-- Normalise every weight first: sum_k (w_k / (0 + sum_t w_t)) v_k. -/
def normBefore {n : ℕ} (b : EReal) (s v : Fin n → EReal) : EReal :=
  ∑ k, Ideal.div (weight b s k) (0 + ∑ t, weight b s t) * v k

/-- On real scores and real values, over a nonempty row, the two normalisations agree. -/
theorem normBefore_eq_normAfter {n : ℕ} (hn : 0 < n) (b : EReal) (hb : b ≠ ⊤) (s v : Fin n → EReal)
    (hs : ∀ k, IsReal (s k)) (hv : ∀ k, IsReal (v k)) : normBefore b s v = normAfter b s v := by
  have hne : (Finset.univ : Finset (Fin n)).Nonempty := ⟨⟨0, hn⟩, Finset.mem_univ _⟩
  obtain ⟨m, hm⟩ : IsReal (rowMax b s) := IsReal.fold_max Finset.univ hne b hb s hs
  choose σ hσ using hs
  choose ν hν using hv
  have hw : ∀ k, weight b s k = ((Real.exp (σ k - m) : ℝ) : EReal) := fun k => by
    unfold weight; rw [hm, hσ k, ← EReal.coe_sub, Ideal.exp_coe]
  have hZ : 0 < ∑ k, Real.exp (σ k - m) := Finset.sum_pos (fun k _ => Real.exp_pos _) hne
  have hden : ∑ t, weight b s t = ((∑ k, Real.exp (σ k - m) : ℝ) : EReal) := by
    rw [coe_sum]; exact Finset.sum_congr rfl fun t _ => hw t
  have hnum : ∑ k, weight b s k * v k = ((∑ k, Real.exp (σ k - m) * ν k : ℝ) : EReal) := by
    rw [coe_sum]; exact Finset.sum_congr rfl fun k _ => by rw [hw k, hν k, ← EReal.coe_mul]
  have hL : normBefore b s v = ((∑ k, Real.exp (σ k - m) * ν k * (1 / ∑ t, Real.exp (σ t - m)) : ℝ) : EReal) := by
    unfold normBefore
    refine Eq.trans ?_ (coe_sum Finset.univ fun k => Real.exp (σ k - m) * ν k * (1 / ∑ t, Real.exp (σ t - m))).symm
    refine Finset.sum_congr rfl fun k _ => ?_
    rw [zero_add, hden, hw k, hν k, Ideal.div_coe (ne_of_gt hZ), ← EReal.coe_mul, ← EReal.coe_mul]
    congr 1
    ring
  have hR : normAfter b s v = ((∑ k, Real.exp (σ k - m) * ν k * (1 / ∑ t, Real.exp (σ t - m)) : ℝ) : EReal) := by
    unfold normAfter
    rw [hden, hnum, Ideal.div_coe (ne_of_gt hZ), ← EReal.coe_mul, Finset.sum_mul]
  rw [hL, hR]

/-- The single-precision pattern of 0.125 is one eighth. -/
theorem ofBits_eighth : Ideal.ofBits .f32 0x3E000000#32 = (((1 : ℝ) / 8 : ℝ) : EReal) := by
  simp [Ideal.ofBits, Ideal.ieee, -EReal.coe_mul]; norm_num

/-- The single-precision pattern of 64.0 is sixty-four. -/
theorem ofBits_sixty_four : Ideal.ofBits .f32 0x42800000#32 = ((64 : ℝ) : EReal) := by
  simp [Ideal.ofBits, Ideal.ieee, -EReal.coe_mul]; norm_num

/-- The square root of sixty-four is eight. -/
theorem sqrt_sixty_four : Ideal.sqrt (Ideal.ofBits .f32 0x42800000#32) = ((8 : ℝ) : EReal) := by
  rw [ofBits_sixty_four, Ideal.sqrt_coe, if_neg (by norm_num)]
  congr 1
  rw [show (64 : ℝ) = 8 * 8 by norm_num]
  exact Real.sqrt_mul_self (by norm_num)

/-- Dividing by the square root of sixty-four is multiplying by one eighth, on every extended real. -/
theorem div_sqrt_sixty_four (x : EReal) :
    Ideal.div x (Ideal.sqrt (Ideal.ofBits .f32 0x42800000#32)) = x * Ideal.ofBits .f32 0x3E000000#32 := by
  rw [sqrt_sixty_four, ofBits_eighth, Ideal.div_coe (by norm_num : (8 : ℝ) ≠ 0)]

/-- A scaled row of products of reals is real. -/
theorem isReal_score {d : ℕ} (x y : Fin d → EReal) (hx : ∀ j, IsReal (x j)) (hy : ∀ j, IsReal (y j)) :
    IsReal ((∑ j, x j * y j) * Ideal.ofBits .f32 0x3E000000#32) := by
  rw [ofBits_eighth]
  exact (IsReal.sum Finset.univ _ fun j => (hx j).mul (hy j)).mul (IsReal.coe _)

end Cert.AttentionLaw

end
-- ==== Proof.LibAttentionBlock.lean ====
/-
  A block of attention as a vector kernel spells it, read at one entry — general in the extents.

  The kernel holds a block of queries [a, d], all keys [n, d] and all values [n, e].  Its scores are the product of the
  queries with the transposed keys, scaled by a constant; its weights are exp (score - row maximum), the maximum a lane
  reduction kept as a column and broadcast back; its result is the product of the weights with the values divided by
  the weights' row sums, again a lane reduction kept as a column and broadcast across the result's columns.  Read at
  an entry each of the three is a statement about one row: a scaled sum of products, the row's unnormalised weight, and
  the quotient of two sums over the keys.
-/
import Idealize.ShloMosaic.PureOps.Ideal.Laws
import Idealize.ShloMosaic.Lib.ValueLayout
import proofs.«154253_j90735479095756_2_alg».proof.Proof.LibColumns
import proofs.«154253_j90735479095756_2_alg».proof.Proof.LibRowSums
import proofs.«154253_j90735479095756_2_alg».proof.Proof.LibRowSoftmax
import proofs.«154253_j90735479095756_2_alg».proof.Proof.LibMatmul
import proofs.«154253_j90735479095756_2_alg».proof.Proof.LibMatmulNT
import proofs.«154253_j90735479095756_2_alg».proof.Proof.AttentionLaw

open scoped BigOperators

noncomputable section

namespace Cert.LibAttentionBlock

open Idealize.ShloMosaic Idealize.ShloMosaic.ValueIdx Cert.AttentionLaw Cert.LibRowSoftmax

variable {a n d e : ℕ}

/-- The scaled scores: entry (r, j) of (queries · keysᵀ) · c is the sum over the feature axis of query row r against
    key row j, times c. -/
theorem scaled_scores_apply (q : FVec Ideal ⟨2, ![a, d]⟩ .f32) (k : FVec Ideal ⟨2, ![n, d]⟩ .f32)
    (prec : Option ContractPrecision) (c : Ideal .f32) (r : Fin a) (j : Fin n) :
    mulf (matmul (DotDims.transposedRhs a d n) prec q k (constant (F := Ideal) ⟨2, ![a, n]⟩ .f32 0x00000000#32))
        (broadcast ⟨2, ![a, n]⟩ c) (ix2 r j)
      = (∑ t : Fin d, q (ix2 r t) * k (ix2 j t)) * c := by
  show FloatOps.matmul (DotDims.transposedRhs a d n) prec q k (constant (F := Ideal) ⟨2, ![a, n]⟩ .f32 0x00000000#32) (ix2 r j) * c = _
  rw [Cert.LibMatmulNT.transposedRhs_matmul_zero_apply]

/-- The weights: exp (z - row maximum) at (r, j) is the unnormalised weight of key j in row r. -/
theorem weights_apply (z : FVec Ideal ⟨2, ![a, n]⟩ .f32) (accM : BitVec 32)
    (h : (⟨2, ![a, n]⟩ : Shape).Reduces [1] ⟨1, ![a]⟩) (hφ : FKind.Formats .f32) (haccM : accM = FKind.maximumf.neutral .f32 hφ)
    (hc : (⟨1, ![a]⟩ : Shape).ShapeCasts ⟨2, ![a, 1]⟩) (hb : (⟨2, ![a, 1]⟩ : Shape).Broadcasts ⟨2, ![a, n]⟩) (r : Fin a) (j : Fin n) :
    exp (subf z (broadcastTo ⟨2, ![a, n]⟩ (shapeCast ⟨2, ![a, 1]⟩ (multiReduction .maximumf [1] ⟨1, ![a]⟩ z accM h hφ haccM) hc) hb)) (ix2 r j)
      = weight (Ideal.ofBits .f32 accM) (fun k => z (ix2 r k)) j := by
  show Ideal.exp (subf z _ (ix2 r j)) = _
  rw [subf_apply, laneMax_apply]
  rfl

/-- The result: (weights · values) / row sums of the weights, at (r, c), is the quotient of the two sums over the keys. -/
theorem normalised_product_apply (W : FVec Ideal ⟨2, ![a, n]⟩ .f32) (v : FVec Ideal ⟨2, ![n, e]⟩ .f32)
    (prec : Option ContractPrecision) (accS : BitVec 32)
    (h : (⟨2, ![a, n]⟩ : Shape).Reduces [1] ⟨1, ![a]⟩) (hφ : FKind.Formats .f32) (haccS : accS = FKind.add.neutral .f32 hφ)
    (hc : (⟨1, ![a]⟩ : Shape).ShapeCasts ⟨2, ![a, 1]⟩) (hb : (⟨2, ![a, 1]⟩ : Shape).Broadcasts ⟨2, ![a, e]⟩) (r : Fin a) (c : Fin e) :
    divf (matmul (DotDims.plain a n e) prec W v (constant (F := Ideal) ⟨2, ![a, e]⟩ .f32 0x00000000#32))
        (broadcastTo ⟨2, ![a, e]⟩ (shapeCast ⟨2, ![a, 1]⟩ (multiReduction .add [1] ⟨1, ![a]⟩ W accS h hφ haccS) hc) hb) (ix2 r c)
      = Ideal.div (∑ k : Fin n, W (ix2 r k) * v (ix2 k c)) (∑ k : Fin n, W (ix2 r k)) := by
  show Ideal.div (FloatOps.matmul (DotDims.plain a n e) prec W v (constant (F := Ideal) ⟨2, ![a, e]⟩ .f32 0x00000000#32) (ix2 r c))
      (broadcastTo ⟨2, ![a, e]⟩ _ hb (ix2 r c)) = _
  rw [Cert.LibMatmul.plain_matmul_zero_apply, Cert.LibColumns.broadcastTo_a1_ab_apply, Cert.LibRowSums.laneSum_apply]

end Cert.LibAttentionBlock

end
-- ==== Proof.KernelBlock.lean ====
/-
  What the kernel's body stores for one block of 256 queries, read at an entry.

  The body loads a [1, 256, 64] block of queries and the [1, 2048, 64] keys and values of the same batch element,
  drops the unit axis, and computes the attention block.  At entry (0, r, c) of the stored block the value is the
  attention of query row r: scores against every key scaled by one eighth, weights exp (score - maximum), and the
  weighted sum of column c of the values divided by the sum of the weights.
-/
import proofs.«154253_j90735479095756_2_alg».proof.Proof.Gen.KernelIdeal.Skeleton
import proofs.«154253_j90735479095756_2_alg».proof.Proof.LibAttentionBlock

open scoped BigOperators

noncomputable section

namespace Cert.KernelBlock

open Idealize.ShloMosaic Idealize.ShloMosaic.ValueIdx Cert.KernelIdeal Cert.KernelIdeal.Gen Cert.AttentionLaw

/-- The scaled score of row `r` of the query block against key `k`. -/
def blockScore (x0 : Vec Ideal S1x256x64 .f32) (x1 : Vec Ideal S1x2048x64 .f32) (r : Fin 256) (k : Fin 2048) : EReal :=
  (∑ j : Fin 64, x0 (ix3 (0 : Fin 1) r j) * x1 (ix3 (0 : Fin 1) k j)) * Ideal.ofBits .f32 0x3E000000#32

/-- The stored block at (0, r, c): the attention of query row r against all keys, on column c of the values. -/
theorem pay_apply (x0 : Vec Ideal S1x256x64 .f32) (x1 x2 : Vec Ideal S1x2048x64 .f32) (r : Fin 256) (c : Fin 64) :
    k0_pay1 (F := Ideal) x0 x1 x2 (ix3 (0 : Fin 1) r c)
      = normAfter (Ideal.ofBits .f32 0xFF800000#32) (blockScore x0 x1 r) (fun k => x2 (ix3 (0 : Fin 1) k c)) := by
  have hscore : ∀ k : Fin 2048,
      (mulf (matmul dot_S256x64_S2048x64_S256x2048_1_1_0_0_n_n none (shapeCast S256x64 x0 shapeCasts_S1x256x64_S256x64)
          (shapeCast S2048x64 x1 shapeCasts_S1x2048x64_S2048x64) (constant (F := Ideal) S256x2048 .f32 0x00000000#32))
        (broadcast S256x2048 (Scalar.ofBits (F := Ideal) .f32 0x3E000000#32))) (ix2 r k) = blockScore x0 x1 r k := fun k => by
    refine (Cert.LibAttentionBlock.scaled_scores_apply _ _ none _ r k).trans ?_
    unfold blockScore
    refine congrArg (· * _) (Finset.sum_congr rfl fun j _ => ?_)
    rw [shapeCast_1ab_ab_apply, shapeCast_1ab_ab_apply]
  unfold k0_pay1
  refine (shapeCast_ab_1ab_apply _ _ (0 : Fin 1) r c).trans ?_
  refine (Cert.LibAttentionBlock.normalised_product_apply _ _ none _ _ _ _ _ _ r c).trans ?_
  unfold normAfter
  refine congrArg₂ Ideal.div (Finset.sum_congr rfl fun k _ => ?_) (Finset.sum_congr rfl fun k _ => ?_)
  · refine congrArg₂ (· * ·) ?_ (shapeCast_1ab_ab_apply _ _ k c)
    refine (Cert.LibAttentionBlock.weights_apply _ _ _ _ _ _ _ r k).trans ?_
    exact congrArg (fun s => weight _ s k) (funext hscore)
  · refine (Cert.LibAttentionBlock.weights_apply _ _ _ _ _ _ _ r k).trans ?_
    exact congrArg (fun s => weight _ s k) (funext hscore)

end Cert.KernelBlock

end
-- ==== Proof.AttentionSpec.lean ====
/-
  The attention array both programs compute, as one function of the three argument arrays.

  Q, K and V are [32, 2048, 64] arrays.  For batch element b and query q the scaled score against key k is
  (Σ_j Q[b, q, j] · K[b, k, j]) · 1/8.  Entry (b, q, c) of the result is the attention of that row of scores on column c
  of V[b]: normalised after the weighted sum in one program, before it in the other.  On arrays of real numbers the
  two arrays are equal, by the row law.
-/
import Idealize.ShloMosaic.Lib.ValueIdx
import proofs.«154253_j90735479095756_2_alg».proof.Proof.AttentionLaw

open scoped BigOperators

noncomputable section

namespace Cert.AttentionSpec

open Idealize.ShloMosaic Idealize.ShloMosaic.ValueIdx Cert.AttentionLaw Cert.LibSoftmaxMean

/-- A [32, 2048, 64] array of extended reals. -/
abbrev Arr : Type := (⟨3, ![32, 2048, 64]⟩ : Shape).Idx → EReal

/-- The value the maximum of a row starts from: the pattern of minus infinity. -/
abbrev start : EReal := Ideal.ofBits .f32 0xFF800000#32

/-- The scaled score of query `(b, q)` against key `k`. -/
def score (Q K : Arr) (b : Fin 32) (q k : Fin 2048) : EReal :=
  (∑ j : Fin 64, Q (ix3 b q j) * K (ix3 b k j)) * Ideal.ofBits .f32 0x3E000000#32

/-- The attention array, each row normalised after its weighted sum. -/
def attention (Q K V : Arr) : Arr := fun i =>
  normAfter start (score Q K (i 0) (i 1)) (fun k => V (ix3 (i 0) k (i 2)))

/-- The attention array, each row's weights normalised before the weighted sum. -/
def attentionWeightsFirst (Q K V : Arr) : Arr := fun i =>
  normBefore start (score Q K (i 0) (i 1)) (fun k => V (ix3 (i 0) k (i 2)))

theorem start_ne_top : start ≠ ⊤ := by
  show Ideal.ofBits .f32 0xFF800000#32 ≠ ⊤
  rw [ofBits_neg_inf]; exact bot_ne_top

/-- On arrays of real numbers the two arrays are the same. -/
theorem attentionWeightsFirst_eq (Q K V : Arr) (hQ : ∀ i, IsReal (Q i)) (hK : ∀ i, IsReal (K i)) (hV : ∀ i, IsReal (V i)) :
    attentionWeightsFirst Q K V = attention Q K V := by
  funext i
  exact normBefore_eq_normAfter (by norm_num) start start_ne_top _ _
    (fun k => isReal_score _ _ (fun j => hQ _) (fun j => hK _)) (fun k => hV _)

end Cert.AttentionSpec

end
-- ==== Proof.KernelArray.lean ====
/-
  From the kernel's blocks to its whole result array.

  The grid has 32 × 8 points; point (b, g) stages queries 256 g … 256 g + 255 of batch element b, all keys and all
  values of b, and writes back the same block of the result.  What a point writes back is the attention array
  restricted to its block, because every entry of the attention array in that block depends only on the query row it
  belongs to and on the keys and values of its own batch element — exactly what the point staged.  The 256 blocks
  tile the [32, 2048, 64] array (entry (b, q, c) lies in the block of point (b, q / 256)), so after the run the result
  array is the attention array.
-/
import proofs.«154253_j90735479095756_2_alg».proof.Proof.Gen.KernelIdeal.Value
import proofs.«154253_j90735479095756_2_alg».proof.Proof.KernelBlock
import proofs.«154253_j90735479095756_2_alg».proof.Proof.AttentionSpec

open scoped BigOperators

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.AttentionLaw Cert.AttentionSpec Cert.KernelBlock

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the grid: the query and result windows sit at block (b, g, 0), the key and value
    windows at block (b, 0, 0), where b = t / 8 and g = t % 8. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0
    ∧ win0_3.index t (0 : Fin 3) = t.val / 8 ∧ win0_3.index t (1 : Fin 3) = t.val % 8 :=
  (by decide +kernel : ∀ t : Fin grid0.N, _)

/-- One entry of a stored block is the attention array's entry, given that the staged blocks hold the query row,
    the keys and the value column that entry depends on. -/
theorem block_entry (Q K Vv : Arr) (x0 : Vec Ideal S1x256x64 .f32) (x1 x2 : Vec Ideal S1x2048x64 .f32)
    (r : Fin 256) (cc : Fin 64) (b : Fin 32) (q : Fin 2048)
    (hq : ∀ u : Fin 64, x0 (ix3 (0 : Fin 1) r u) = Q (ix3 b q u))
    (hk : ∀ (k : Fin 2048) (u : Fin 64), x1 (ix3 (0 : Fin 1) k u) = K (ix3 b k u))
    (hv : ∀ k : Fin 2048, x2 (ix3 (0 : Fin 1) k cc) = Vv (ix3 b k cc)) :
    k0_pay1 (F := Ideal) x0 x1 x2 (ix3 (0 : Fin 1) r cc) = attention Q K Vv (ix3 b q cc) := by
  rw [pay_apply]
  unfold attention
  refine congrArg₂ (normAfter _) (funext fun k => ?_) (funext fun k => hv k)
  unfold blockScore score
  refine congrArg (· * _) (Finset.sum_congr rfl fun u _ => ?_)
  exact congrArg₂ (· * ·) (hq u) (hk k u)

/-- What point `t` writes back is block `t` of the attention array of the arrays as the region finds them. -/
theorem flushed_eq (c : Dev nD) (t : Fin cfg0.N) :
    (dats m 0 c).flushed 3 t
      = ((cfg0.win 3).blk t).view.read (Elt Ideal) (attention (V m c main_arg0) (V m c main_arg1) (V m c main_arg2)) := by
  rw [Cert.KernelIdeal.Value.flushed3]
  unfold out0_3
  rw [View.canon_unit_zero zero_offsets]
  simp only [View.ld_unit_zero (S := S1x256x64) zero_offsets, View.ld_unit_zero (S := S1x2048x64) zero_offsets]
  obtain ⟨e00, e01, e02, e10, e11, e12, e20, e21, e22, e32, p0, p1⟩ := idx_facts t
  have ht : t.val < 256 := lt_of_lt_of_eq t.isLt N_0
  funext j
  show k0_pay1 (F := Ideal) (iblk m c 0 t) (iblk m c 1 t) (iblk m c 2 t) ((cfg0.win 3).xinj (grid0.coords t) j)
      = attention (V m c main_arg0) (V m c main_arg1) (V m c main_arg2) (((cfg0.win 3).blk t).view.emb j)
  have hj0 : (j 0).val < 1 := (j 0).isLt
  have hj1 : (j 1).val < 256 := (j 1).isLt
  have hj2 : (j 2).val < 64 := (j 2).isLt
  have hb : win0_3.index t (0 : Fin 3) < 32 := by omega
  have hqb : win0_3.index t (1 : Fin 3) * 256 + (j 1).val < 2048 := by omega
  have hy : (cfg0.win 3).xinj (grid0.coords t) j = ix3 (0 : Fin 1) (⟨(j 1).val, hj1⟩ : Fin 256) (⟨(j 2).val, hj2⟩ : Fin 64) := by
    funext a
    apply Fin.ext
    match a with
    | ⟨0, _⟩ => show (j 0).val = 0; omega
    | ⟨1, _⟩ => rfl
    | ⟨2, _⟩ => rfl
  have hi : ((cfg0.win 3).blk t).view.emb j
      = ix3 (⟨win0_3.index t (0 : Fin 3), hb⟩ : Fin 32) (⟨win0_3.index t (1 : Fin 3) * 256 + (j 1).val, hqb⟩ : Fin 2048) (⟨(j 2).val, hj2⟩ : Fin 64) := by
    funext a
    apply Fin.ext
    match a with
    | ⟨0, _⟩ => show win0_3.index t (0 : Fin 3) * 1 + 1 * (j 0).val = win0_3.index t (0 : Fin 3); omega
    | ⟨1, _⟩ => show win0_3.index t (1 : Fin 3) * 256 + 1 * (j 1).val = win0_3.index t (1 : Fin 3) * 256 + (j 1).val; omega
    | ⟨2, _⟩ => show win0_3.index t (2 : Fin 3) * 64 + 1 * (j 2).val = (j 2).val; omega
  refine (congrArg (k0_pay1 (F := Ideal) (iblk m c 0 t) (iblk m c 1 t) (iblk m c 2 t)) hy).trans
    (Eq.trans ?_ (congrArg (attention (V m c main_arg0) (V m c main_arg1) (V m c main_arg2)) hi.symm))
  refine block_entry (V m c main_arg0) (V m c main_arg1) (V m c main_arg2) (iblk m c 0 t) (iblk m c 1 t) (iblk m c 2 t)
    _ _ _ _ ?_ ?_ ?_
  · intro u
    show V m c main_arg0 (((cfg0.win 0).blk t).view.emb (ix3 (0 : Fin 1) (⟨(j 1).val, hj1⟩ : Fin 256) u)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 256 + 1 * (j 1).val = win0_3.index t (1 : Fin 3) * 256 + (j 1).val; omega
    | ⟨2, _⟩ => show win0_0.index t (2 : Fin 3) * 64 + 1 * u.val = u.val; omega
  · intro k u
    show V m c main_arg1 (((cfg0.win 1).blk t).view.emb (ix3 (0 : Fin 1) k u)) = _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * u.val = u.val; omega
  · intro k
    show V m c main_arg2 (((cfg0.win 2).blk t).view.emb (ix3 (0 : Fin 1) k (⟨(j 2).val, hj2⟩ : Fin 64))) = _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * k.val = k.val; omega
    | ⟨2, _⟩ => show win0_2.index t (2 : Fin 3) * 64 + 1 * (j 2).val = (j 2).val; omega

/-- An index of the array is in point `t`'s block iff each coordinate is in the block's range on its axis. -/
theorem mem_blk (t : Fin cfg0.N) (i : S32x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v0).slice (win0_3.rect t)).set ↔ _
  rw [View.set_slice_whole, Rect.mem_set_unit]
  exact Iff.rfl

/-- Every entry of the result lies in the block of the point (b, q / 256). -/
theorem covered (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  have hlt : (i 0).val * 8 + (i 1).val / 256 < cfg0.N := lt_of_lt_of_eq (by omega : _ < 256) N_0.symm
  obtain ⟨-, -, -, -, -, -, -, -, -, p2, p0, p1⟩ := idx_facts ⟨(i 0).val * 8 + (i 1).val / 256, hlt⟩
  have p0' : win0_3.index ⟨(i 0).val * 8 + (i 1).val / 256, hlt⟩ (0 : Fin 3) = ((i 0).val * 8 + (i 1).val / 256) / 8 := p0
  have p1' : win0_3.index ⟨(i 0).val * 8 + (i 1).val / 256, hlt⟩ (1 : Fin 3) = ((i 0).val * 8 + (i 1).val / 256) % 8 := p1
  refine ⟨⟨(i 0).val * 8 + (i 1).val / 256, hlt⟩, flush0_3 _, ?_⟩
  rw [mem_blk]
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 256 ≤ (i 1).val ∧ (i 1).val < win0_3.index _ (1 : Fin 3) * 256 + 256
    omega
  | ⟨2, _⟩ =>
    show win0_3.index _ (2 : Fin 3) * 64 ≤ (i 2).val ∧ (i 2).val < win0_3.index _ (2 : Fin 3) * 64 + 64
    omega

/-- After the run the result array is the attention array of the arguments. -/
theorem final (c : Dev nD) :
    (dats m 0 c).arrAt 3 cfg0.N = attention (m ((c : Thread nD τ).loc main_arg0)) (m ((c : Thread nD τ).loc main_arg1))
      (m ((c : Thread nD τ).loc main_arg2)) :=
  (dats m 0 c).arrAt_eq_of_cover 3 _ (fun t _ => flushed_eq m c t) covered

/-- The kernel's run: the result array ends as the attention array of the arguments, which end unchanged. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelArray

end
-- ==== Proof.ReferenceEntry.lean ====
/-
  The reference's result read at an entry.

  The reference forms all scores Q Kᵀ / sqrt 64 as a [32, 2048, 2048] array, takes each row's maximum (a reduce from
  minus infinity, then once more the maximum with minus infinity), exponentiates the differences, divides each by the
  row's sum (a reduce from zero) and multiplies by V.  Read at entry (b, q, c) this is the attention of row (b, q) with
  the weights normalised before the weighted sum; dividing by sqrt 64 is multiplying by one eighth on every extended
  real, so no finiteness is needed yet.
-/
import proofs.«154253_j90735479095756_2_alg».proof.Proof.Gen.ReferenceIdeal.Read
import proofs.«154253_j90735479095756_2_alg».proof.Proof.AttentionSpec

open scoped BigOperators

noncomputable section

namespace Cert.ReferenceEntry

open Idealize.ShloMosaic Idealize.ShloMosaic.ValueIdx Cert.ReferenceIdeal Cert.ReferenceIdeal.Gen Cert.ReferenceIdeal.Read
open Cert.AttentionLaw Cert.AttentionSpec Cert.LibRowSoftmax

variable (Q K V : (⟨S32x2048x64, .f32⟩ : BufTy).Contents (Elt Ideal))

/-- The source index the reduction along the key axis inserts over row `(b, q)` at coordinate `k` is `(b, q, k)`. -/
theorem lift_key (h : S32x2048x2048.Reduces [2] S32x2048) (j : S32x2048.Idx) (k : Fin 2048) :
    h.lift j k = ix3 (j 0) (j 1) k := by
  funext ax
  apply Fin.ext
  match ax with
  | ⟨0, _⟩ => rfl
  | ⟨1, _⟩ => rfl
  | ⟨2, _⟩ => rfl

/-- The scaled scores: Q Kᵀ / sqrt 64 at (b, q, k). -/
theorem ref_score (j : S32x2048x2048.Idx) : val_main_v3 (F := Ideal) Q K j = score Q K (j 0) (j 1) (j 2) := by
  rw [val_main_v3_apply, val_main_v0_apply, val_main_v2_apply, val_main_v1_apply, val_main_cst_apply]
  simp only [Ideal.hostDivf_def, Ideal.hostUnary_sqrt_def, Ideal.ofBits_def]
  rw [div_sqrt_sixty_four]
  unfold score
  refine congrArg (· * _) (Finset.sum_congr rfl fun t _ => ?_)
  refine congrArg₂ (· * ·) (congrArg Q ?_) (congrArg K ?_)
  · funext ax; match ax with | ⟨0, _⟩ => rfl | ⟨1, _⟩ => rfl | ⟨2, _⟩ => rfl
  · funext ax; match ax with | ⟨0, _⟩ => rfl | ⟨1, _⟩ => rfl | ⟨2, _⟩ => rfl

/-- The row maxima: the reduce from minus infinity, then the maximum with minus infinity once more. -/
theorem ref_max (j : S32x2048.Idx) : val_main_v6 (F := Ideal) Q K j = rowMax start (score Q K (j 0) (j 1)) := by
  have hred : S32x2048x2048.Reduces [2] S32x2048 := by decide
  rw [val_main_v6_apply, val_main_v5_apply, val_main_cst_1_apply]
  unfold val_main_v4
  rw [Host.reduce_eq_fold_single FloatOps.maximumf _ _ reducesTo_S32x2048x2048_S32x2048_d2 hred h_S_, val_main_cst_0_apply]
  refine Eq.trans ?_ (max_rowMax start _)
  unfold rowMax
  show max start (Finset.fold max start (fun k => val_main_v3 (F := Ideal) Q K (hred.lift j k)) Finset.univ) = _
  refine congrArg (fun f : Fin 2048 → EReal => max start (Finset.fold max start f Finset.univ)) (funext fun k => ?_)
  exact (congrArg (val_main_v3 (F := Ideal) Q K) (lift_key hred j k)).trans (ref_score Q K _)

/-- The unnormalised weights. -/
theorem ref_weight (j : S32x2048x2048.Idx) :
    val_main_v10 (F := Ideal) Q K j = weight start (score Q K (j 0) (j 1)) (j 2) := by
  rw [val_main_v10_apply, val_main_v9_apply, val_main_v8_apply, val_main_v7_apply, ref_max, ref_score]
  rfl

/-- The row sums of the weights, from zero. -/
theorem ref_sum (j : S32x2048.Idx) :
    val_main_v11 (F := Ideal) Q K j = 0 + ∑ k : Fin 2048, weight start (score Q K (j 0) (j 1)) k := by
  rw [val_main_v11_apply, val_main_cst_2_apply]
  refine congrArg₂ (· + ·) Ideal.ofBits_zero_f32 (Finset.sum_congr rfl fun k _ => ?_)
  rw [ref_weight]
  rfl

/-- The reference's result at an entry: the attention of the row with its weights normalised first. -/
theorem ref_entry : val_main_v15 (F := Ideal) Q K V = attentionWeightsFirst Q K V := by
  funext i
  rw [val_main_v15_apply]
  unfold attentionWeightsFirst normBefore
  refine Finset.sum_congr rfl fun k _ => ?_
  rw [val_main_v14_apply, val_main_v13_apply, val_main_v12_apply, ref_sum, ref_weight]
  refine congrArg₂ (· * ·) rfl (congrArg V ?_)
  funext ax; match ax with | ⟨0, _⟩ => rfl | ⟨1, _⟩ => rfl | ⟨2, _⟩ => rfl

end Cert.ReferenceEntry

end
-- ==== Proof.FiniteInputs.lean ====
/-
  The precondition: every entry of the three argument arrays is a real number.

  The precondition compares the absolute value of every entry with plus infinity, takes the conjunction over each
  array and then of the three arrays, and says the result is one.  An extended real x with max (x, -x) < +inf is
  neither infinity, hence a real number.
-/
import proofs.«154253_j90735479095756_2_alg».proof.Pre_finite_inputs
import proofs.«154253_j90735479095756_2_alg».proof.Proof.Gen.Pre_finite_inputs
import Idealize.ShloMosaic.Lib.ReduceAll
import Idealize.ShloMosaic.Lib.Affine
import Idealize.ShloMosaic.Lib.IdealHost
import Idealize.ShloMosaic.PureOps.Ideal.Laws
import proofs.«154253_j90735479095756_2_alg».proof.Proof.LibSoftmaxMean

noncomputable section

namespace Cert.FiniteInputs

open Idealize.ShloMosaic Idealize.ShloMosaic.ValueIdx Cert.Pre_finite_inputs Cert.Pre_finite_inputs.Gen Cert.LibSoftmaxMean

instance : Subsingleton S_.Idx := ⟨fun a b => funext fun d => d.elim0⟩

/-- An extended real whose absolute value compares below the pattern of plus infinity is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- One array's conjunct: if the conjunction over the array of |x| < +inf is one, every entry is real. -/
theorem isReal_of_all (a : FVec Ideal S32x2048x64 .f32)
    (h : Host.reduce IntOp.andi (cmpf .olt (Host.absf a)
        (broadcastInDim S32x2048x64 ![] bcast_S_S32x2048x64 (constant (F := Ideal) S_ .f32 0x7F800000#32)))
        (constantI S_ 1 1#1) reducesTo_S32x2048x64_S_d0_1_2 h_S_ ix0 = 1#1) (i : S32x2048x64.Idx) : IsReal (a i) := by
  have hi := Host.reduce_andi_all _ _ _ _ _ h i
  refine isReal_of_abs_lt (a i) ?_
  rw [cmpf_apply, broadcastInDim_scalar_apply] at hi
  exact hi

/-- The precondition gives real entries in all three arrays. -/
theorem all_real (a0 a1 a2 : FVec Ideal S32x2048x64 .f32) (h : fn (F := Ideal) a0 a1 a2 = fun _ => 1#1) :
    (∀ i, IsReal (a0 i)) ∧ (∀ i, IsReal (a1 i)) ∧ (∀ i, IsReal (a2 i)) := by
  have h0 := congrFun h ix0
  dsimp only [fn] at h0
  change IntOp.andi (IntOp.andi _ _) _ = 1#1 at h0
  obtain ⟨h01, h2⟩ := IntOp.andi_eq_one.1 h0
  obtain ⟨h0', h1⟩ := IntOp.andi_eq_one.1 h01
  exact ⟨isReal_of_all a0 h0', isReal_of_all a1 h1, isReal_of_all a2 h2⟩

end Cert.FiniteInputs

end
-- ==== Proof.lean ====
/-
  Scaled dot-product attention over [32, 2048, 64] arrays Q, K, V: a kernel that tiles the queries against a plain
  reference, equal over the extended reals on finite inputs.

  Both programs compute, for batch element b and query q, the scores s_k = (Σ_j Q[b, q, j] · K[b, k, j]) / 8 against
  every key k, the weights w_k = exp (s_k - max_k s_k), and a weighted combination of the rows of V[b].  They differ in
  three places.  The kernel multiplies by the constant 0.125 where the reference divides by sqrt 64; the square root of
  sixty-four is eight and dividing an extended real by eight is multiplying it by one eighth.  The reference takes the
  maximum of its row maximum with minus infinity once more, which changes nothing because the maximum is already folded
  from minus infinity.  And the kernel divides the weighted sum Σ_k w_k V[b, k, c] once by Σ_k w_k, while the reference
  divides every weight by the sum first: on real scores and values the maximum is real, the weights are positive
  reals, the normaliser is a positive real, and a real factor distributes over a finite sum of reals.  This last step is
  where the precondition is used: with an infinite entry the two sides can differ.

  The kernel's grid has 32 × 8 points; point (b, g) computes the attention of queries 256 g … 256 g + 255 of batch element
  b from all keys and values of b and writes that block of the result; the blocks tile the result array.

  Modules: AttentionLaw (one row: the two normalisations agree on reals; the scale), AttentionSpec (the attention
  array as a function of Q, K, V), KernelBlock (a stored block read at an entry), KernelArray (blocks to the whole
  array; the kernel's run), ReferenceEntry (the reference read at an entry), FiniteInputs (the precondition gives real
  entries).
-/
import proofs.«154253_j90735479095756_2_alg».proof.Defs
import proofs.«154253_j90735479095756_2_alg».proof.Proof.Gen.Kernel
import proofs.«154253_j90735479095756_2_alg».proof.Proof.Gen.Kernel.Skeleton
import proofs.«154253_j90735479095756_2_alg».proof.Proof.Gen.Kernel.Launch
import proofs.«154253_j90735479095756_2_alg».proof.Proof.Gen.Kernel.Points
import proofs.«154253_j90735479095756_2_alg».proof.Proof.Gen.Kernel.Frame
import proofs.«154253_j90735479095756_2_alg».proof.Proof.Gen.KernelIdeal
import proofs.«154253_j90735479095756_2_alg».proof.Proof.Gen.KernelIdeal.Skeleton
import proofs.«154253_j90735479095756_2_alg».proof.Proof.Gen.KernelIdeal.Launch
import proofs.«154253_j90735479095756_2_alg».proof.Proof.Gen.KernelIdeal.Points
import proofs.«154253_j90735479095756_2_alg».proof.Proof.Gen.KernelIdeal.Frame
import proofs.«154253_j90735479095756_2_alg».proof.Proof.Gen.ReferenceIdeal
import proofs.«154253_j90735479095756_2_alg».proof.Proof.Gen.Pre_finite_inputs
import proofs.«154253_j90735479095756_2_alg».proof.Proof.Gen.KernelIdeal.Value
import proofs.«154253_j90735479095756_2_alg».proof.Proof.Gen.ReferenceIdeal.Run
import proofs.«154253_j90735479095756_2_alg».proof.Proof.Gen.ReferenceIdeal.Read
import proofs.«154253_j90735479095756_2_alg».proof.Proof.KernelArray
import proofs.«154253_j90735479095756_2_alg».proof.Proof.ReferenceEntry
import proofs.«154253_j90735479095756_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the attention array of the arguments: the kernel block by block, the reference with each
    row's weights normalised first, which on real entries is the same array. -/
theorem algebraic : Cert.algebraic_KernelIdeal_ReferenceIdeal := by
  intro m ρ m' ρ' hpre hagree
  refine ⟨fun c => Cert.AttentionSpec.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.FiniteInputs.all_real _ _ _ (hpre c)
  rw [(hagree c).1, (hagree c).2.1, (hagree c).2.2, Cert.ReferenceIdeal.Read.val_main_v15_eq,
    Cert.ReferenceEntry.ref_entry]
  exact Cert.AttentionSpec.attentionWeightsFirst_eq _ _ _ hQ hK hV

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
